-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S64 .f32) (main_arg3 : IVec S800000 32) (main_arg4 : IVec S800000 32) (main_arg5 : FVec F S800000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S64 : Shape := ⟨1, ![64]⟩
abbrev S800000 : Shape := ⟨1, ![800000]⟩
abbrev S100000x64 : Shape := ⟨2, ![100000, 64]⟩
abbrev S10000x128 : Shape := ⟨2, ![10000, 128]⟩
abbrev S10000x64 : Shape := ⟨2, ![10000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S100000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S100000x64, .f32⟩
  | .hbm, ⟨21, _⟩ => ⟨S800000x1, .i32⟩
  | .hbm, ⟨22, _⟩ => ⟨S100000x64, .f32⟩
  | .hbm, ⟨23, _⟩ => ⟨S1x64, .f32⟩
  | .hbm, ⟨24, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x64_S10000x64_1_0_0_1_n_n_wf : DotDims.WF S10000x128 S128x64 S10000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S800000 : Shape := ⟨1, ![800000]⟩
abbrev S100000x64 : Shape := ⟨2, ![100000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S100000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S100000x64, .f32⟩
  | .hbm, ⟨21, _⟩ => ⟨S800000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KernelRun.lean ====
/-
  The idealized kernel's run with its result array read.

  The program is three stretches: the projection call, a line of host operations (gather, scale, scatter-add,
  the bias reshaped to one row), and the bias call. The buffer contents at each boundary are a fold from the launch
  memory; the last boundary's contents are what every weakly fair execution ends with on the buffers no kernel
  scopes. This module states that run with the RESULT buffer read as well as the six arguments: the result ends
  at the last boundary's contents of its buffer, and each argument as launched.
-/
import proofs.«119116_j17016660427562_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument arrays as launched: the launch over the three segments, the final
    thread state read against the final memory on every unscoped buffer, the result's among them. -/
theorem run_out : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.Spec.lean ====
/-
  The layer as ONE function of its argument arrays, over the extended reals.

  A graph-convolution layer on 100000 nodes and 800000 weighted edges:
    projected[r, c] = Σ_k x[r, k] · w[k, c]                       (128 features to 64)
    gathered[e, c]  = vals[e] · projected[cols[e], c]             (one message per edge)
    summed[r, c]    = Σ_{e : rows[e] = r} gathered[e, c]          (messages added into their target rows)
    out[r, c]       = summed[r, c] + bias[c].
  The middle two lines are the SAME host operations in both programs (a gather at the column indices, negative ones
  wrapped by the node count, a product with the edge weights spread along the features, a scatter-add into zeros at
  the row indices); they are named here as one function of the projected array and never opened.
-/
import proofs.«119116_j17016660427562_2_alg».proof.Proof.Gen.KernelIdeal
import Idealize.ShloMosaic.PureOps.Ideal
import Idealize.ShloMosaic.Lib.ValueIdx

noncomputable section

namespace Cert.Layer

open Cert.KernelIdeal Cert.KernelIdeal.Gen Idealize.ShloMosaic Idealize.ShloMosaic.ValueIdx

/-- Row `r`, column `c` of the projection: the sum over the 128 input features of `x[r, k] · w[k, c]`. -/
def project (x : S100000x128.Idx → EReal) (w : S128x64.Idx → EReal) : S100000x64.Idx → EReal :=
  fun i => ∑ k : Fin 128, x (ix2 (⟨(i 0).val, (i 0).isLt⟩ : Fin 100000) k) * w (ix2 k (⟨(i 1).val, (i 1).isLt⟩ : Fin 64))

/-- One row `[1, 64]` added to every row of a `[100000, 64]` array. -/
def addRow (a : S100000x64.Idx → EReal) (r : S1x64.Idx → EReal) : S100000x64.Idx → EReal :=
  fun i => a i + r (ix2 (0 : Fin 1) (⟨(i 1).val, (i 1).isLt⟩ : Fin 64))

/-- A bias vector `[64]` added to every row. -/
def addBias (a : S100000x64.Idx → EReal) (b : S64.Idx → EReal) : S100000x64.Idx → EReal :=
  fun i => a i + b (ix1 (⟨(i 1).val, (i 1).isLt⟩ : Fin 64))

/-- The edge aggregation, as the host computes it from the projected array: gather the rows at the column
    indices (a negative index wrapped by 100000), scale each by its edge weight, scatter-add into zeros at the row
    indices. Both programs apply exactly this line of operations. -/
def aggregate (sp : (⟨S100000x64, .f32⟩ : BufTy).Contents (Elt Ideal))
    (rows cols : (⟨S800000, .i32⟩ : BufTy).Contents (Elt Ideal)) (vals : (⟨S800000, .f32⟩ : BufTy).Contents (Elt Ideal)) :
    (⟨S100000x64, .f32⟩ : BufTy).Contents (Elt Ideal) :=
  Host.scatterAdd (F := Ideal) scatter_S100000x64_S800000x1_S800000x64_1_0_0_1
    (broadcastInDim S100000x64 ![] bcast_S_S100000x64 (constant (F := Ideal) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S100000x64_S800000x1_S800000x64_1_0_n_n_0_1_164 sp
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 100000#32))) cols))))

/-- The whole layer. -/
def layer (x : S100000x128.Idx → EReal) (w : S128x64.Idx → EReal) (b : S64.Idx → EReal)
    (rows cols : (⟨S800000, .i32⟩ : BufTy).Contents (Elt Ideal)) (vals : (⟨S800000, .f32⟩ : BufTy).Contents (Elt Ideal)) :
    S100000x64.Idx → EReal :=
  addBias (aggregate (project x w) rows cols vals) b

end Cert.Layer

end
-- ==== Proof.ProjectCall.lean ====
/-
  The projection call: what its output array holds after the run, as one function of the two arrays it reads.
-/
import proofs.«119116_j17016660427562_2_alg».proof.Proof.Gen.KernelIdeal.Frame
import proofs.«119116_j17016660427562_2_alg».proof.Proof.Spec
import Idealize.ShloMosaic.Lib.Pipeline.Value
import Idealize.ShloMosaic.Lib.ValueIdx
import Idealize.ShloMosaic.PureOps.Ideal.Laws

noncomputable section

namespace Cert.KernelIdeal.ProjectCall

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block product's dimension record: rows × contraction times contraction × columns. -/
abbrev D : DotDims S10000x128 S128x64 S10000x64 := dot_S10000x128_S128x64_S10000x64_1_0_0_1_n_n

/-! ## The operand indices of the block product at an output index and a contraction index -/

theorem lhs_0 (i : S10000x64.Idx) (k : D.contr.Idx) : (D.lhsIdx i k 0).val = (i 0).val := by
  unfold DotDims.lhsIdx
  rw [dif_neg (show ¬(0 : Fin S10000x128.rank) ∈ D.lhsBatch by decide), dif_pos (show (0 : Fin S10000x128.rank) ∈ D.lhsNonContracting by decide)]
  rfl
theorem lhs_1 (i : S10000x64.Idx) (k : D.contr.Idx) : (D.lhsIdx i k 1).val = (k ⟨0, by decide⟩).val :=
  D.lhsIdx_val_of_single rfl i k
theorem rhs_0 (i : S10000x64.Idx) (k : D.contr.Idx) : (D.rhsIdx i k 0).val = (k ⟨0, by decide⟩).val :=
  D.rhsIdx_val_of_single rfl i k
theorem rhs_1 (i : S10000x64.Idx) (k : D.contr.Idx) : (D.rhsIdx i k 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- The body's stored value at entry `(p, q)` of the block: the rounding to bf16 is the identity on the extended
    reals and the accumulator is zero, so it is the sum over the 128 features of row `p` of the left block times
    column `q` of the weights. -/
theorem pay_apply (x0 : FVec Ideal S10000x128 .f32) (x1 : FVec Ideal S128x64 .f32) (p : Fin 10000) (q : Fin 64) :
    k0_pay1 x0 x1 (ix2 p q) = ∑ k : Fin 128, x0 (ix2 p k) * x1 (ix2 k q) := by
  unfold k0_pay1
  show FloatOps.matmul D none (truncf .bf16 x0 bitsLt_bf16_f32) (truncf .bf16 x1 bitsLt_bf16_f32) (constant S10000x64 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]
  rfl

/-- The printed index maps over the ten grid points: the left operand's and the output's blocks move down the rows
    with the point, the weights' one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Two arrays over the block's index type agree when they agree at every `(p, q)`. -/
theorem ext_block {α : Type} {f g : S10000x64.Idx → α} (h : ∀ (p : Fin 10000) (q : Fin 64), f (ix2 p q) = g (ix2 p q)) : f = g :=
  funext fun j => by rw [eq_ix2 j]; exact h _ _

/-- WHAT POINT `t` WRITES BACK is block `t` of the projection of the two arrays the call reads. -/
theorem flushed_eq (c : Dev nD) (t : Fin cfg0.N) :
    (dat0 V c).flushed 2 t = ((cfg0.win 2).blk t).view.read (Elt Ideal) (Cert.Layer.project (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  refine ext_block fun p q => ?_
  show k0_pay1 (iblk0 V c 0 t) (iblk0 V c 1 t) (ix2 p q)
    = Cert.Layer.project (V c main_arg0) (V c main_arg1) (((cfg0.win 2).blk t).view.emb (ix2 p q))
  refine (pay_apply (iblk0 V c 0 t) (iblk0 V c 1 t) p q).trans ?_
  unfold Cert.Layer.project
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 64) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine congrArg₂ (· * ·) ?_ ?_
  · show V c main_arg0 (((cfg0.win 0).blk t).view.emb (ix2 p k))
      = V c main_arg0 (ix2 (⟨((((cfg0.win 2).blk t).view.emb (ix2 p q)) 0).val, ((((cfg0.win 2).blk t).view.emb (ix2 p q)) 0).isLt⟩ : Fin 100000) k)
    rw [h0]
  · show V c main_arg1 (((cfg0.win 1).blk t).view.emb (ix2 k q))
      = V c main_arg1 (ix2 k (⟨((((cfg0.win 2).blk t).view.emb (ix2 p q)) 1).val, ((((cfg0.win 2).blk t).view.emb (ix2 p q)) 1).isLt⟩ : Fin 64))
    rw [h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` lies in the block of point `r / 10000`: the ten blocks of 10000 rows tile the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- THE OUTPUT ARRAY after the projection call: the projection of the node features by the weights. -/
theorem final (c : Dev nD) : (dat0 V c).arrAt 2 cfg0.N = Cert.Layer.project (V c main_arg0) (V c main_arg1) :=
  (dat0 V c).arrAt_eq_of_cover 2 _ (fun t _ => flushed_eq V c t) cover

end Cert.KernelIdeal.ProjectCall

end
-- ==== Proof.BiasCall.lean ====
/-
  The bias call: what its output array holds after the run, as one function of the two arrays it reads.
-/
import proofs.«119116_j17016660427562_2_alg».proof.Proof.Gen.KernelIdeal.Frame
import proofs.«119116_j17016660427562_2_alg».proof.Proof.Spec
import Idealize.ShloMosaic.Lib.Pipeline.Value
import Idealize.ShloMosaic.Lib.ValueIdx
import Idealize.ShloMosaic.Lib.ValueLayout

noncomputable section

namespace Cert.KernelIdeal.BiasCall

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)` of the block: the two casts are between equal shapes, so it is the
    first block's entry plus the one row's entry of column `q`. -/
theorem pay_apply (x0 : FVec Ideal S10000x64 .f32) (x1 : FVec Ideal S1x64 .f32) (p : Fin 10000) (q : Fin 64) :
    k1_pay1 x0 x1 (ix2 p q) = x0 (ix2 p q) + x1 (ix2 (0 : Fin 1) q) := by
  unfold k1_pay1
  show addf (shapeCast S10000x64 x0 shapeCasts_S10000x64_S10000x64) (broadcastTo S10000x64 (shapeCast S1x64 x1 shapeCasts_S1x64_S1x64) broadcasts_S1x64_S10000x64) (ix2 p q) = _
  rw [addf_apply, shapeCast_self, shapeCast_self, broadcastTo_1b_ab_apply]

/-- The printed index maps over the ten grid points: the input's and the output's blocks move down the rows with the
    point, the bias row's one block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Two arrays over the block's index type agree when they agree at every `(p, q)`. -/
theorem ext_block {α : Type} {f g : S10000x64.Idx → α} (h : ∀ (p : Fin 10000) (q : Fin 64), f (ix2 p q) = g (ix2 p q)) : f = g :=
  funext fun j => by rw [eq_ix2 j]; exact h _ _

/-- WHAT POINT `t` WRITES BACK is block `t` of the first array with the one row added to every row. -/
theorem flushed_eq (c : Dev nD) (t : Fin cfg1.N) :
    (dat1 V c).flushed 2 t = ((cfg1.win 2).blk t).view.read (Elt Ideal) (Cert.Layer.addRow (V c main_v13) (V c main_v14)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  refine ext_block fun p q => ?_
  show k1_pay1 (iblk1 V c 0 t) (iblk1 V c 1 t) (ix2 p q)
    = Cert.Layer.addRow (V c main_v13) (V c main_v14) (((cfg1.win 2).blk t).view.emb (ix2 p q))
  refine (pay_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  refine congrArg₂ (· + ·) ?_ ?_
  · show V c main_v13 (((cfg1.win 0).blk t).view.emb (ix2 p q)) = V c main_v13 (((cfg1.win 2).blk t).view.emb (ix2 p q))
    rw [h0]
  · show V c main_v14 (((cfg1.win 1).blk t).view.emb (ix2 (0 : Fin 1) q))
      = V c main_v14 (ix2 (0 : Fin 1) (⟨((((cfg1.win 2).blk t).view.emb (ix2 p q)) 1).val, ((((cfg1.win 2).blk t).view.emb (ix2 p q)) 1).isLt⟩ : Fin 64))
    rw [h1]

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v15).slice (win1_2.rect t)).set ↔ _
  rw [View.set_slice_whole, Rect.mem_set_unit]
  exact Iff.rfl

/-- Row `r` lies in the block of point `r / 10000`: the ten blocks of 10000 rows tile the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < grid1.N := by omega
  obtain ⟨e0, e1, e2, e3, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- THE OUTPUT ARRAY after the bias call: the aggregated array it read with the one bias row added to every row. -/
theorem final (c : Dev nD) : (dat1 V c).arrAt 2 cfg1.N = Cert.Layer.addRow (V c main_v13) (V c main_v14) :=
  (dat1 V c).arrAt_eq_of_cover 2 _ (fun t _ => flushed_eq V c t) cover

end Cert.KernelIdeal.BiasCall

end
-- ==== Proof.KernelValue.lean ====
/-
  The idealized kernel computes the layer: its result array after the run is the specification's function of the
  argument arrays.

  Reading the boundaries backwards from the result. After the bias call the result array is the array that call read
  with the bias row added to every row. That call read what the host line left: the shared aggregation of the array
  the projection call wrote, and the bias vector reshaped to one row. The projection call wrote the projection of the
  node features by the weights, both as launched; and no host operation or call writes an argument.
-/
import proofs.«119116_j17016660427562_2_alg».proof.Proof.KernelRun
import proofs.«119116_j17016660427562_2_alg».proof.Proof.ProjectCall
import proofs.«119116_j17016660427562_2_alg».proof.Proof.BiasCall
import proofs.«119116_j17016660427562_2_alg».proof.Proof.Spec
import Idealize.ShloMosaic.Lib.StableHlo.Run
import Idealize.ShloMosaic.Lib.ValueLayout

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- After the projection call its output array is the projection of the launched features and weights. -/
theorem projected (c : Dev nD) :
    W1 m ρ c (Proc.devRef .tc main_v0)
      = Cert.Layer.project (m ((c : Thread nD τ).loc main_arg0)) (m ((c : Thread nD τ).loc main_arg1)) :=
  (W1_arr m ρ c 2).trans (ProjectCall.final (V0 m ρ) c)

/-- The host line leaves, in the array the bias call reads first, the shared aggregation of the projected array
    by the launched edge lists. -/
theorem aggregated (c : Dev nD) :
    V2 m ρ c main_v13
      = Cert.Layer.aggregate (W1 m ρ c (Proc.devRef .tc main_v0)) (m ((c : Thread nD τ).loc main_arg3))
          (m ((c : Thread nD τ).loc main_arg4)) (m ((c : Thread nD τ).loc main_arg5)) := by
  show StableHlo.after hostOps1 (W1 m ρ c) (Proc.devRef .tc main_v13) = _
  after_results
  rw [W1_of_ne m ρ c main_arg3 (by decide), W1_of_ne m ρ c main_arg4 (by decide), W1_of_ne m ρ c main_arg5 (by decide)]
  rfl

/-- and, in the array it reads second, the launched bias reshaped to one row. -/
theorem biasRow (c : Dev nD) :
    V2 m ρ c main_v14 = shapeCast S1x64 (m ((c : Thread nD τ).loc main_arg2)) shapeCasts_S64_S1x64 := by
  show StableHlo.after hostOps1 (W1 m ρ c) (Proc.devRef .tc main_v14) = _
  after_results
  rw [W1_of_ne m ρ c main_arg2 (by decide)]
  rfl

/-- Adding a vector reshaped to one row to every row is adding the vector's entry of the column. -/
theorem addRow_reshape (a : S100000x64.Idx → EReal) (b : S64.Idx → EReal) :
    Cert.Layer.addRow a (shapeCast S1x64 b shapeCasts_S64_S1x64) = Cert.Layer.addBias a b := by
  funext i
  unfold Cert.Layer.addRow Cert.Layer.addBias
  rw [shapeCast_a_1a_apply]

/-- THE RESULT ARRAY at the last boundary is the layer of the launched arguments. -/
theorem result_eq (c : Dev nD) :
    W3 m ρ c (Proc.devRef .tc main_v15)
      = Cert.Layer.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W3_arr m ρ c 2).trans ?_
  refine (BiasCall.final (V2 m ρ) c).trans ?_
  rw [aggregated m ρ c, biasRow m ρ c, projected m ρ c, addRow_reshape]
  rfl

/-- THE KERNEL'S RUN, READ: every weakly fair execution terminates with the result at the layer of the launched
    arguments and the arguments unchanged. -/
theorem run : θ_run defs (onTc (τ := τ) (main (F := Ideal))) ⟨m, fun _ => 0, ρ⟩ (fun r => ∀ c : Dev nD,
      r.2.mem ((c.tc : Thread nD τ).loc main_v15)
        = Cert.Layer.layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_out m ρ)

end Cert.KernelIdeal.Whole

end
-- ==== Proof.RefValue.lean ====
/-
  The reference computes the layer: its run's result term, at the extended reals, is the specification's function.

  The reference projects with one whole `dot_general`, which at the extended reals is the plain sum of products over
  the 128 features; applies the same line of host operations to the projected array; and adds the bias through two
  broadcasts (`[64]` to `[1, 64]` to `[100000, 64]`), which read at `(r, c)` give `bias[c]`.
-/
import proofs.«119116_j17016660427562_2_alg».proof.Proof.Gen.ReferenceIdeal.Read
import proofs.«119116_j17016660427562_2_alg».proof.Proof.Spec

noncomputable section

namespace Cert.ReferenceIdeal.RefLayer

open Cert.ReferenceIdeal Cert.ReferenceIdeal.Gen Cert.ReferenceIdeal.Read
open Idealize.ShloMosaic Idealize.ShloMosaic.TcCoe Idealize.SL.Sem Idealize.ShloMosaic.ValueIdx

/-- The reference's whole product is the projection: entry `(r, c)` is the sum over `k` of `x[r, k] · w[k, c]`. -/
theorem dot_eq (x0 : (⟨S100000x128, .f32⟩ : BufTy).Contents (Elt Ideal)) (x1 : (⟨S128x64, .f32⟩ : BufTy).Contents (Elt Ideal)) :
    val_main_v0 (F := Ideal) x0 x1 = Cert.Layer.project x0 x1 := by
  funext i
  refine (val_main_v0_apply x0 x1 i).trans ?_
  unfold Cert.Layer.project
  refine Finset.sum_congr rfl fun k _ => ?_
  have el : lidx_main_v0 i k = ix2 (⟨(i 0).val, (i 0).isLt⟩ : Fin 100000) k :=
    funext fun a => Fin.ext (by match a with | ⟨0, _⟩ => rfl | ⟨1, _⟩ => rfl)
  have er : ridx_main_v0 i k = ix2 k (⟨(i 1).val, (i 1).isLt⟩ : Fin 64) :=
    funext fun a => Fin.ext (by match a with | ⟨0, _⟩ => rfl | ⟨1, _⟩ => rfl)
  rw [el, er]

/-- The reference's aggregation stage is the shared line of host operations applied to its projected array. -/
theorem agg_eq (x0 : (⟨S100000x128, .f32⟩ : BufTy).Contents (Elt Ideal)) (x1 : (⟨S128x64, .f32⟩ : BufTy).Contents (Elt Ideal))
    (x3 x4 : (⟨S800000, .i32⟩ : BufTy).Contents (Elt Ideal)) (x5 : (⟨S800000, .f32⟩ : BufTy).Contents (Elt Ideal)) :
    val_main_v13 (F := Ideal) x0 x1 x3 x4 x5 = Cert.Layer.aggregate (val_main_v0 (F := Ideal) x0 x1) x3 x4 x5 := rfl

/-- The bias through its two broadcasts, read at `(r, c)`, is `bias[c]`. -/
theorem bias_apply (x2 : (⟨S64, .f32⟩ : BufTy).Contents (Elt Ideal)) (i : S100000x64.Idx) :
    val_main_v15 (F := Ideal) x2 i = x2 (ix1 (⟨(i 1).val, (i 1).isLt⟩ : Fin 64)) := by
  rw [val_main_v15_apply, val_main_v14_apply]
  exact congrArg x2 (funext fun a => Fin.ext (by match a with | ⟨0, _⟩ => rfl))

/-- The reference's result stage is the layer. -/
theorem result_eq (x0 : (⟨S100000x128, .f32⟩ : BufTy).Contents (Elt Ideal)) (x1 : (⟨S128x64, .f32⟩ : BufTy).Contents (Elt Ideal))
    (x2 : (⟨S64, .f32⟩ : BufTy).Contents (Elt Ideal)) (x3 x4 : (⟨S800000, .i32⟩ : BufTy).Contents (Elt Ideal))
    (x5 : (⟨S800000, .f32⟩ : BufTy).Contents (Elt Ideal)) :
    val_main_v16 (F := Ideal) x0 x1 x2 x3 x4 x5 = Cert.Layer.layer x0 x1 x2 x3 x4 x5 := by
  funext i
  rw [val_main_v16_apply, bias_apply, agg_eq, dot_eq]
  rfl

end Cert.ReferenceIdeal.RefLayer

end
-- ==== Proof.lean ====
/-
  A graph-convolution layer on 100000 nodes and 800000 weighted edges: out = A · (x · W) + bias, with the sparse
  adjacency A given as edge lists (rows, cols, vals).

  The kernel projects the node features by the weights in ten row blocks of 10000 (rounding the operands to bf16 on
  the way into the product, which on the extended reals is the identity; accumulating into zero), hands the projected
  array to a line of host operations (gather the source rows, scale by the edge weights, scatter-add into the target
  rows), and adds the bias, reshaped to one row, in ten row blocks again. The reference projects with one whole
  product, applies the SAME line of host operations, and adds the bias through two broadcasts.

  On the extended reals both results are one function of the argument arrays (`Cert.Layer.layer`, Proof/Spec.lean):
    out[r, c] = (Σ over the edges into r of vals · projected[source, c]) + bias[c],
    projected[r, c] = Σ_k x[r, k] · w[k, c].
  The two sides differ only in how the projection and the bias addition are tiled: a block of the product is the
  product's block, since a row of the output depends on that row of `x` alone; and a row broadcast over a block is the
  broadcast's block. No law of arithmetic beyond reading each operation at an index is used, so finiteness of the
  inputs is never needed. The aggregation is never opened: it is the same function on both sides.

  Modules: Proof/Spec.lean (the layer as one function), Proof/ProjectCall.lean and Proof/BiasCall.lean (each call's
  output array as one function of the arrays it reads, from the block a grid point writes back and the cover of the
  array by the ten blocks), Proof/KernelRun.lean (the run with the result buffer read), Proof/KernelValue.lean (the
  three stretches composed), Proof/RefValue.lean (the reference's term is the layer).
-/
import proofs.«119116_j17016660427562_2_alg».proof.Defs
import proofs.«119116_j17016660427562_2_alg».proof.Proof.Gen.Kernel
import proofs.«119116_j17016660427562_2_alg».proof.Proof.Gen.Kernel.Frame
import proofs.«119116_j17016660427562_2_alg».proof.Proof.Gen.KernelIdeal
import proofs.«119116_j17016660427562_2_alg».proof.Proof.Gen.KernelIdeal.Frame
import proofs.«119116_j17016660427562_2_alg».proof.Proof.Gen.ReferenceIdeal
import proofs.«119116_j17016660427562_2_alg».proof.Proof.Gen.Pre_finite_inputs
import proofs.«119116_j17016660427562_2_alg».proof.Proof.Gen.ReferenceIdeal.Run
import proofs.«119116_j17016660427562_2_alg».proof.Proof.Gen.ReferenceIdeal.Read
import proofs.«119116_j17016660427562_2_alg».proof.Proof.KernelValue
import proofs.«119116_j17016660427562_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel's result and the reference's are both the layer of
    the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefLayer.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
